-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S245760 : Shape := ⟨1, ![245760]⟩
abbrev S2x16777216 : Shape := ⟨2, ![2, 16777216]⟩
abbrev S16777216x1 : Shape := ⟨2, ![16777216, 1]⟩
abbrev S16777216 : Shape := ⟨1, ![16777216]⟩
abbrev S4096 : Shape := ⟨1, ![4096]⟩
abbrev S_ : Shape := ⟨0, ![]⟩

class Facts : Prop where
  bcast_S_S245760 : S_.BroadcastsInDim S245760 (![] : Fin 0 → Fin S245760.rank)
  reducesTo_S245760_S_d0 : S245760.ReducesTo [0] S_
  h_S_ : 0 < S_.numel
  bcast_S_S16777216x1 : S_.BroadcastsInDim S16777216x1 (![] : Fin 0 → Fin S16777216x1.rank)
  reducesTo_S16777216x1_S_d0_1 : S16777216x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v15 : IVec S16777216x1 1) (main_c_5 : IVec S_ 1) : IVec S_ 1 :=
  let main_v16 : IVec S_ 1 := (fun x v => Host.reduce IntOp.andi x v reducesTo_S16777216x1_S_d0_1 h_S_) main_v15 main_c_5
  let main_v17 : IVec S_ 1 := andi main_v13 main_v16
  main_v17

def fn {F : FTy → Type} [FloatOps F] (main_arg0 : FVec F S245760 .f32) (main_arg1 : IVec S2x16777216 32) (main_arg2 : FVec F S16777216x1 .f32) (main_arg3 : IVec S16777216 32) (main_arg4 : FVec F S4096 .f32) : IVec S_ 1 :=
  let main_v0 : FVec F S245760 .f32 := Host.absf main_arg0
  let main_cst : FVec F S_ .f32 := constant S_ .f32 0x7F800000#32
  let main_v1 : FVec F S245760 .f32 := broadcastInDim S245760 ![] bcast_S_S245760 main_cst
  let main_v2 : IVec S245760 1 := cmpf .olt main_v0 main_v1
  let main_c : IVec S_ 1 := constantI S_ 1 1#1
  let main_v3 : IVec S_ 1 := (fun x v => Host.reduce IntOp.andi x v reducesTo_S245760_S_d0 h_S_) main_v2 main_c
  let main_v4 : FVec F S16777216x1 .f32 := Host.absf main_arg2
  let main_cst_0 : FVec F S_ .f32 := constant S_ .f32 0x7F800000#32
  let main_v5 : FVec F S16777216x1 .f32 := broadcastInDim S16777216x1 ![] bcast_S_S16777216x1 main_cst_0
  let main_v6 : IVec S16777216x1 1 := cmpf .olt main_v4 main_v5
  let main_c_1 : IVec S_ 1 := constantI S_ 1 1#1
  let main_v7 : IVec S_ 1 := (fun x v => Host.reduce IntOp.andi x v reducesTo_S16777216x1_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_cst_4 : FVec F S_ .f32 := constant S_ .f32 0x00000000#32
  let main_v14 : FVec F S16777216x1 .f32 := broadcastInDim S16777216x1 ![] bcast_S_S16777216x1 main_cst_4
  let main_v15 : IVec S16777216x1 1 := cmpf .une main_arg2 main_v14
  let main_c_5 : IVec S_ 1 := constantI S_ 1 1#1
  fn_part1 (F := F) main_v13 main_v15 main_c_5
-- ==== Kernel.lean ====
abbrev S245760 : Shape := ⟨1, ![245760]⟩
abbrev S2x16777216 : Shape := ⟨2, ![2, 16777216]⟩
abbrev S16777216x1 : Shape := ⟨2, ![16777216, 1]⟩
abbrev S16777216 : Shape := ⟨1, ![16777216]⟩
abbrev S4096 : Shape := ⟨1, ![4096]⟩
abbrev S1x16777216 : Shape := ⟨2, ![1, 16777216]⟩
abbrev S_ : Shape := ⟨0, ![]⟩
abbrev S131072x128 : Shape := ⟨2, ![131072, 128]⟩
abbrev S4096x128 : Shape := ⟨2, ![4096, 128]⟩

abbrev nBuf : Space → Nat
  | .hbm => 46
  | .vmem => 8
  | .smem => 0
  | _ => 0

abbrev bufTy : (tb : Table) → Fin (tcTables nBuf tb) → BufTy
  | .hbm, ⟨0, _⟩ => ⟨S245760, .f32⟩
  | .hbm, ⟨1, _⟩ => ⟨S2x16777216, .i32⟩
  | .hbm, ⟨2, _⟩ => ⟨S16777216x1, .f32⟩
  | .hbm, ⟨3, _⟩ => ⟨S16777216, .i32⟩
  | .hbm, ⟨4, _⟩ => ⟨S4096, .f32⟩
  | .hbm, ⟨5, _⟩ => ⟨S1x16777216, .i32⟩
  | .hbm, ⟨6, _⟩ => ⟨S16777216, .i32⟩
  | .hbm, ⟨7, _⟩ => ⟨S1x16777216, .i32⟩
  | .hbm, ⟨8, _⟩ => ⟨S16777216, .i32⟩
  | .hbm, ⟨9, _⟩ => ⟨S16777216, .i1⟩
  | .hbm, ⟨10, _⟩ => ⟨S_, .i32⟩
  | .hbm, ⟨11, _⟩ => ⟨S16777216, .i32⟩
  | .hbm, ⟨12, _⟩ => ⟨S16777216, .i1⟩
  | .hbm, ⟨13, _⟩ => ⟨S_, .i32⟩
  | .hbm, ⟨14, _⟩ => ⟨S16777216, .i32⟩
  | .hbm, ⟨15, _⟩ => ⟨S16777216, .i32⟩
  | .hbm, ⟨16, _⟩ => ⟨S16777216, .i32⟩
  | .hbm, ⟨17, _⟩ => ⟨S16777216x1, .i32⟩
  | .hbm, ⟨18, _⟩ => ⟨S16777216, .f32⟩
  | .hbm, ⟨19, _⟩ => ⟨S_, .i32⟩
  | .hbm, ⟨20, _⟩ => ⟨S16777216, .i32⟩
  | .hbm, ⟨21, _⟩ => ⟨S16777216, .i1⟩
  | .hbm, ⟨22, _⟩ => ⟨S_, .i32⟩
  | .hbm, ⟨23, _⟩ => ⟨S16777216, .i32⟩
  | .hbm, ⟨24, _⟩ => ⟨S16777216, .i32⟩
  | .hbm, ⟨25, _⟩ => ⟨S16777216, .i32⟩
  | .hbm, ⟨26, _⟩ => ⟨S16777216x1, .i32⟩
  | .hbm, ⟨27, _⟩ => ⟨S16777216, .f32⟩
  | .hbm, ⟨28, _⟩ => ⟨S16777216, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S131072x128, .f32⟩
  | .hbm, ⟨33, _⟩ => ⟨S16777216, .f32⟩
  | .hbm, ⟨34, _⟩ => ⟨S_, .f32⟩
  | .hbm, ⟨35, _⟩ => ⟨S_, .f32⟩
  | .hbm, ⟨36, _⟩ => ⟨S16777216, .f32⟩
  | .hbm, ⟨37, _⟩ => ⟨S16777216, .f32⟩
  | .hbm, ⟨38, _⟩ => ⟨S_, .f32⟩
  | .hbm, ⟨39, _⟩ => ⟨S4096, .f32⟩
  | .hbm, ⟨40, _⟩ => ⟨S16777216x1, .i32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | _, _ => ⟨S245760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216x1_S16777216 : S16777216x1.ShapeCasts S16777216
  shapeCasts_S16777216_S131072x128 : S16777216.ShapeCasts S131072x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S131072x128_S16777216 : S131072x128.ShapeCasts S16777216
  bcast_S_S4096 : S_.BroadcastsInDim S4096 (![] : Fin 0 → Fin S4096.rank)
  gather_S245760_S16777216x1_S16777216_n_0_n_n_0_1_1_wf : GatherDims.WF S245760 S16777216x1 S16777216 [] [0] [] [0] [] 1 ![1]
  scatter_S4096_S16777216x1_S16777216_n_0_0_1_wf : ScatterDims.WF S4096 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)

variable [Facts₀]

def gather_S245760_S16777216x1_S16777216_n_0_n_n_0_1_1 : GatherDims S245760 S16777216x1 S16777216 where
  offsetDims := []
  collapsedSliceDims := [0]
  operandBatchingDims := []
  startIndicesBatchingDims := []
  startIndexMap := [0]
  indexVectorDim := 1
  sliceSizes := ![1]
  wf := gather_S245760_S16777216x1_S16777216_n_0_n_n_0_1_1_wf
def scatter_S4096_S16777216x1_S16777216_n_0_0_1 : ScatterDims S4096 S16777216x1 S16777216 where
  updateWindowDims := []
  insertedWindowDims := [0]
  scatterDimsToOperandDims := [0]
  indexVectorDim := 1
  wf := scatter_S4096_S16777216x1_S16777216_n_0_0_1_wf

abbrev win0_0 : Pipeline.Window sig grid0 :=
  Pipeline.Window.ofSpec (Memref.whole main_v20) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S245760 : Shape := ⟨1, ![245760]⟩
abbrev S2x16777216 : Shape := ⟨2, ![2, 16777216]⟩
abbrev S16777216x1 : Shape := ⟨2, ![16777216, 1]⟩
abbrev S16777216 : Shape := ⟨1, ![16777216]⟩
abbrev S4096 : Shape := ⟨1, ![4096]⟩
abbrev S1x16777216 : Shape := ⟨2, ![1, 16777216]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S245760, .f32⟩
  | .hbm, ⟨1, _⟩ => ⟨S2x16777216, .i32⟩
  | .hbm, ⟨2, _⟩ => ⟨S16777216x1, .f32⟩
  | .hbm, ⟨3, _⟩ => ⟨S16777216, .i32⟩
  | .hbm, ⟨4, _⟩ => ⟨S4096, .f32⟩
  | .hbm, ⟨5, _⟩ => ⟨S1x16777216, .i32⟩
  | .hbm, ⟨6, _⟩ => ⟨S16777216, .i32⟩
  | .hbm, ⟨7, _⟩ => ⟨S1x16777216, .i32⟩
  | .hbm, ⟨8, _⟩ => ⟨S16777216, .i32⟩
  | .hbm, ⟨9, _⟩ => ⟨S16777216, .i1⟩
  | .hbm, ⟨10, _⟩ => ⟨S16777216, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S16777216, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S16777216, .f32⟩
  | .hbm, ⟨34, _⟩ => ⟨S_, .f32⟩
  | .hbm, ⟨35, _⟩ => ⟨S16777216, .f32⟩
  | .hbm, ⟨36, _⟩ => ⟨S16777216, .f32⟩
  | .hbm, ⟨37, _⟩ => ⟨S16777216, .f32⟩
  | .hbm, ⟨38, _⟩ => ⟨S_, .f32⟩
  | .hbm, ⟨39, _⟩ => ⟨S16777216, .f32⟩
  | .hbm, ⟨40, _⟩ => ⟨S16777216, .i1⟩
  | .hbm, ⟨41, _⟩ => ⟨S_, .f32⟩
  | .hbm, ⟨42, _⟩ => ⟨S_, .f32⟩
  | .hbm, ⟨43, _⟩ => ⟨S16777216, .f32⟩
  | .hbm, ⟨44, _⟩ => ⟨S16777216, .f32⟩
  | .hbm, ⟨45, _⟩ => ⟨S16777216, .f32⟩
  | .hbm, ⟨46, _⟩ => ⟨S_, .f32⟩
  | .hbm, ⟨47, _⟩ => ⟨S16777216, .f32⟩
  | .hbm, ⟨48, _⟩ => ⟨S16777216, .f32⟩
  | .hbm, ⟨49, _⟩ => ⟨S16777216, .f32⟩
  | .hbm, ⟨50, _⟩ => ⟨S16777216, .f32⟩
  | .hbm, ⟨51, _⟩ => ⟨S_, .f32⟩
  | .hbm, ⟨52, _⟩ => ⟨S16777216, .f32⟩
  | .hbm, ⟨53, _⟩ => ⟨S16777216, .f32⟩
  | .hbm, ⟨54, _⟩ => ⟨S16777216, .f32⟩
  | .hbm, ⟨55, _⟩ => ⟨S16777216, .f32⟩
  | .hbm, ⟨56, _⟩ => ⟨S_, .i32⟩
  | .hbm, ⟨57, _⟩ => ⟨S16777216, .i32⟩
  | .hbm, ⟨58, _⟩ => ⟨S16777216, .i1⟩
  | .hbm, ⟨59, _⟩ => ⟨S_, .i32⟩
  | .hbm, ⟨60, _⟩ => ⟨S16777216, .i32⟩
  | .hbm, ⟨61, _⟩ => ⟨S16777216, .i32⟩
  | .hbm, ⟨62, _⟩ => ⟨S16777216, .i32⟩
  | .hbm, ⟨63, _⟩ => ⟨S16777216x1, .i32⟩
  | .hbm, ⟨64, _⟩ => ⟨S16777216, .f32⟩
  | .hbm, ⟨65, _⟩ => ⟨S_, .i32⟩
  | .hbm, ⟨66, _⟩ => ⟨S16777216, .i32⟩
  | .hbm, ⟨67, _⟩ => ⟨S16777216, .i1⟩
  | .hbm, ⟨68, _⟩ => ⟨S_, .i32⟩
  | .hbm, ⟨69, _⟩ => ⟨S16777216, .i32⟩
  | .hbm, ⟨70, _⟩ => ⟨S16777216, .i32⟩
  | .hbm, ⟨71, _⟩ => ⟨S16777216, .i32⟩
  | .hbm, ⟨72, _⟩ => ⟨S16777216x1, .i32⟩
  | .hbm, ⟨73, _⟩ => ⟨S16777216, .f32⟩
  | .hbm, ⟨74, _⟩ => ⟨S16777216, .f32⟩
  | .hbm, ⟨75, _⟩ => ⟨S16777216, .f32⟩
  | .hbm, ⟨76, _⟩ => ⟨S_, .f32⟩
  | .hbm, ⟨77, _⟩ => ⟨S_, .f32⟩
  | .hbm, ⟨78, _⟩ => ⟨S16777216, .f32⟩
  | .hbm, ⟨79, _⟩ => ⟨S16777216, .f32⟩
  | .hbm, ⟨80, _⟩ => ⟨S_, .f32⟩
  | .hbm, ⟨81, _⟩ => ⟨S4096, .f32⟩
  | .hbm, ⟨82, _⟩ => ⟨S16777216x1, .i32⟩
  | .hbm, ⟨83, _⟩ => ⟨S4096, .f32⟩
  | .hbm, ⟨84, _⟩ => ⟨S4096, .f32⟩
  | .hbm, ⟨85, _⟩ => ⟨S_, .f32⟩
  | .hbm, ⟨86, _⟩ => ⟨S4096, .f32⟩
  | .hbm, ⟨87, _⟩ => ⟨S4096, .f32⟩
  | _, _ => ⟨S245760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_call1_v0 : Ref sig .tc := ⟨.hbm, 77, rfl⟩
abbrev main_call1_v1 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  shapeCasts_S16777216x1_S16777216 : S16777216x1.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S4096 : S_.BroadcastsInDim S4096 (![] : Fin 0 → Fin S4096.rank)
  gather_S245760_S16777216x1_S16777216_n_0_n_n_0_1_1_wf : GatherDims.WF S245760 S16777216x1 S16777216 [] [0] [] [0] [] 1 ![1]
  scatter_S4096_S16777216x1_S16777216_n_0_0_1_wf : ScatterDims.WF S4096 S16777216x1 S16777216 [] [0] [0] 1

variable [Facts₀]

def gather_S245760_S16777216x1_S16777216_n_0_n_n_0_1_1 : GatherDims S245760 S16777216x1 S16777216 where
  offsetDims := []
  collapsedSliceDims := [0]
  operandBatchingDims := []
  startIndicesBatchingDims := []
  startIndexMap := [0]
  indexVectorDim := 1
  sliceSizes := ![1]
  wf := gather_S245760_S16777216x1_S16777216_n_0_n_n_0_1_1_wf
def scatter_S4096_S16777216x1_S16777216_n_0_0_1 : ScatterDims S4096 S16777216x1 S16777216 where
  updateWindowDims := []
  insertedWindowDims := [0]
  scatterDimsToOperandDims := [0]
  indexVectorDim := 1
  wf := scatter_S4096_S16777216x1_S16777216_n_0_0_1_wf

class Facts : Prop extends Facts₀ where

variable [Facts]
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.DistanceDomain.lean ====
/-
  What the precondition says about the distances: every entry of the distance array is a NONZERO REAL.

  The precondition is the conjunction of four "all entries" tests, three of finiteness (`|x| < +∞` over the charges,
  the distances and the given energies) and one of the distances being different from zero. A conjunction of one-bit
  words that is 1 has every conjunct 1; an "all" over an array that is 1 has the test 1 at every entry; `|x| < +∞` at an
  extended real says it is a real, and `x ≠ 0` that the real is not zero.
-/
import proofs.«106208_j58128087384372_2_alg».proof.Pre_finite_inputs
import proofs.«106208_j58128087384372_2_alg».proof.Proof.LibFinite
import Idealize.ShloMosaic.PureOps.Ideal
import Idealize.ShloMosaic.PureOps.Ideal.Laws
import Idealize.ShloMosaic.Lib.Affine
import Idealize.ShloMosaic.Lib.ReduceAll

noncomputable section

namespace Cert.DistanceDomain

open Idealize.ShloMosaic Cert.Pre_finite_inputs Cert.Lib.Finite

/-- The comparison `x ≠ 0` read back from its one-bit word. -/
theorem ne_zero_of_cmp (x : EReal) (h : Ideal.cmp .une x (Ideal.ofBits .f32 0x00000000#32) = 1#1) : x ≠ 0 := by
  intro hx
  rw [Ideal.ofBits_zero_f32] at h
  simp [Ideal.cmp, hx] at h

/-- Under the precondition every distance is a nonzero real. -/
theorem distance_real_ne_zero [Cert.Pre_finite_inputs.Facts]
    (x0 : FVec Ideal S245760 .f32) (x1 : IVec S2x16777216 32) (x2 : FVec Ideal S16777216x1 .f32)
    (x3 : IVec S16777216 32) (x4 : FVec Ideal S4096 .f32)
    (h : Cert.Pre_finite_inputs.fn (F := Ideal) x0 x1 x2 x3 x4 = fun _ => 1#1) (j : S16777216x1.Idx) :
    ∃ r : ℝ, r ≠ 0 ∧ x2 j = (r : EReal) := by
  have h0 := congrFun h (fun a => a.elim0)
  dsimp only [Cert.Pre_finite_inputs.fn, Cert.Pre_finite_inputs.fn_part1] at h0
  obtain ⟨h123, hD⟩ := IntOp.andi_eq_one.1 h0
  obtain ⟨h12, hC⟩ := IntOp.andi_eq_one.1 h123
  obtain ⟨hA, hB⟩ := IntOp.andi_eq_one.1 h12
  have hfin := Host.reduce_andi_all _ _ _ _ _ hB j
  have hne := Host.reduce_andi_all _ _ _ _ _ hD j
  obtain ⟨r, hr⟩ := real_of_cmp (x2 j) hfin
  have hz : x2 j ≠ 0 := ne_zero_of_cmp (x2 j) hne
  refine ⟨r, ?_, hr⟩
  rintro rfl
  exact hz (by rw [hr]; rfl)

end Cert.DistanceDomain

end
-- ==== Proof.PairTerm.lean ====
/-
  The energy term of ONE atom pair, as a function on the extended reals, in the two arrangements the two programs
  compute it in.

  With `u = 2 d` the switching function is `φ = 1 - 6 u⁵ + 15 u⁴ - 10 u³` where `u < 1` and `0` elsewhere, and the
  pair's term is `qᵢ qⱼ (φ / √(d² + 1) + (1 - φ) / d)`.

  One arrangement scales by the reciprocal cutoff (`u = 2 d · 1`), multiplies by the reciprocal square root and by the
  reciprocal `1 / d`, and groups `u⁵ = (u² u²) u`; the other divides by the cutoff (`u = 2 d / 1`), divides by the square
  root and by `d`, and groups `u⁵ = u (u² u²)`. For a distance that is a NONZERO REAL the two are the same extended real:
  a product with `1` and a quotient by `1` are both the identity, the products commute, `d² + 1` is a positive real so
  that its reciprocal square root is the reciprocal of its (nonzero) square root, and a quotient by a nonzero real is
  the product with its reciprocal. At `d = 0` they differ (`0 · (1/0) = 0` against `0/0`), which is why the distance is
  taken nonzero.
-/
import Idealize.ShloMosaic.PureOps.Ideal
import Idealize.ShloMosaic.PureOps.Ideal.Laws

noncomputable section

namespace Cert.PairTerm

open Idealize.ShloMosaic

/-- The float words the two programs share: `0`, `1`, `2`, `6`, `10`, `15`. Only `1` is ever evaluated. -/
abbrev w0 : EReal := Ideal.ofBits .f32 0x00000000#32
abbrev w1 : EReal := Ideal.ofBits .f32 0x3F800000#32
abbrev w2 : EReal := Ideal.ofBits .f32 0x40000000#32
abbrev w6 : EReal := Ideal.ofBits .f32 0x40C00000#32
abbrev w10 : EReal := Ideal.ofBits .f32 0x41200000#32
abbrev w15 : EReal := Ideal.ofBits .f32 0x41700000#32

/-- The word of `1.0` denotes the real `1`. -/
theorem w1_eq : w1 = 1 := by
  simp [Ideal.ofBits, Ideal.ieee]
  exact_mod_cast (by norm_num : (8388608 : ℝ) * ((2 : ℝ) ^ 23)⁻¹ = 1)

/-- The switching polynomial with `u⁵` grouped `(u² u²) u`. -/
def polyK (u : EReal) : EReal := w1 - w6 * (u * u * (u * u) * u) + w15 * (u * u * (u * u)) - w10 * (u * u * u)

/-- The switching polynomial with `u⁵` grouped `u (u² u²)`. -/
def polyR (u : EReal) : EReal := w1 - w6 * (u * (u * u * (u * u))) + w15 * (u * u * (u * u)) - w10 * (u * u * u)

/-- The cutoff: the polynomial's value where `u < 1`, zero elsewhere. -/
def gate (u p : EReal) : EReal := Scalar.select (Ideal.cmp .olt u w1) p w0

/-- The pair's term, first arrangement (products with reciprocals). -/
def termK (qi qj d : EReal) : EReal :=
  qi * qj * (gate (w2 * d * w1) (polyK (w2 * d * w1)) * Ideal.rsqrt (d * d + w1)
    + (w1 - gate (w2 * d * w1) (polyK (w2 * d * w1))) * Ideal.div w1 d)

/-- The pair's term, second arrangement (quotients). -/
def termR (qi qj d : EReal) : EReal :=
  qi * qj * (Ideal.div (gate (Ideal.div (w2 * d) w1) (polyR (Ideal.div (w2 * d) w1))) (Ideal.sqrt (d * d + w1))
    + Ideal.div (w1 - gate (Ideal.div (w2 * d) w1) (polyR (Ideal.div (w2 * d) w1))) d)

/-- The two groupings of `u⁵` agree: multiplication of extended reals commutes. -/
theorem polyR_eq (u : EReal) : polyR u = polyK u := by
  unfold polyR polyK
  rw [mul_comm u (u * u * (u * u))]

/-- Dividing by the cutoff `1` is multiplying by it: both are the identity. -/
theorem div_one_eq (x : EReal) : Ideal.div x w1 = x * w1 := by
  rw [w1_eq, ← EReal.coe_one, Ideal.div_coe one_ne_zero]
  simp

/-- The blend of the two potentials at a nonzero real distance: `p · rsqrt(d² + 1) + (1 - p) · (1/d)` is
    `p / √(d² + 1) + (1 - p) / d`, whatever extended real `p` is. -/
theorem blend_eq (p : EReal) (r : ℝ) (hr : r ≠ 0) :
    p * Ideal.rsqrt ((r : EReal) * r + w1) + (w1 - p) * Ideal.div w1 r
      = Ideal.div p (Ideal.sqrt ((r : EReal) * r + w1)) + Ideal.div (w1 - p) r := by
  have hpos : 0 < r * r + 1 := add_pos_of_nonneg_of_pos (mul_self_nonneg r) one_pos
  have hs : (r : EReal) * r + w1 = ((r * r + 1 : ℝ) : EReal) := by
    rw [w1_eq]; norm_cast
  have hq : Real.sqrt (r * r + 1) ≠ 0 := (Real.sqrt_pos.2 hpos).ne'
  rw [hs, Ideal.rsqrt_coe, Ideal.sqrt_coe, if_neg (not_lt.2 hpos.le), if_neg hpos.ne', if_neg (not_lt.2 hpos.le),
    Ideal.div_coe hq, Ideal.div_coe hr, Ideal.div_coe hr, w1_eq]
  simp only [one_mul, one_div]

/-- THE LAW: at a nonzero real distance the two arrangements of a pair's term are one extended real. -/
theorem termK_eq_termR (qi qj : EReal) (r : ℝ) (hr : r ≠ 0) : termK qi qj r = termR qi qj r := by
  unfold termK termR
  rw [div_one_eq, polyR_eq, blend_eq _ r hr]

end Cert.PairTerm

end
-- ==== Proof.KernelArray.lean ====
/-
  What the kernel's output array holds after the run: at every index of the [131072, 128] array, the first arrangement
  of the pair's term (PairTerm.lean) of the three input arrays' entries at that same index.

  The body is pointwise: it loads the whole [4096, 128] blocks of the two charge arrays and of the distance array,
  and stores, at each position of the block, the pair's term of the three loaded entries there. Grid point `t` of the
  32 works on rows `4096 t … 4096 t + 4095` of all four arrays (one index map for the four windows), so position `y`
  of every block is row `4096 t + y₀`, column `y₁` of its array, and the block point `t` writes back is the block of ONE
  whole-array function. The 32 blocks tile the array: row `i` lies in the block of point `i / 4096`.
-/
import proofs.«106208_j58128087384372_2_alg».proof.Proof.Gen.KernelIdeal.Frame
import proofs.«106208_j58128087384372_2_alg».proof.Proof.PairTerm
import Idealize.ShloMosaic.Lib.Pipeline.Value

set_option maxRecDepth 16384

noncomputable section

namespace Cert.KernelIdeal.PairArray

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The pair's term of three arrays' entries, index by index: charges `a0`, `a1`, distances `a2`. -/
abbrev termArray (a0 a1 a2 : S131072x128.Idx → Elt Ideal .f32) : S131072x128.Idx → Elt Ideal .f32 :=
  fun i => PairTerm.termK (a0 i) (a1 i) (a2 i)

/-- The body's stored value, position by position, is the pair's term of the loaded entries: the body's operations are
    the term's, one for one (its two casts of a block to its own shape are the identity). -/
theorem payload_eq (x0 x1 x2 : Vec Ideal S4096x128 .f32) :
    k0_pay1 (F := Ideal) x2 x0 x1 = fun j => PairTerm.termK (x0 j) (x1 j) (x2 j) := by
  unfold k0_pay1
  simp only [shapeCast_self]
  rfl

/-- The four windows share one index map: at grid point `t` every window is on block row `t` (of 32), block column 0. -/
theorem same_block : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 31 ∧ win0_3.index t (1 : Fin 2) = 0 :=
  (by decide +kernel : ∀ t : Fin grid0.N, _)

/-- Every one of the 32 block rows is some grid point's. -/
theorem block_of_row : ∀ q : Fin 32, ∃ t : Fin cfg0.N, win0_3.index t = ![q.val, 0] :=
  (by decide +kernel : ∀ q : Fin 32, ∃ t : Fin grid0.N, win0_3.index t = ![q.val, 0])

/-- WHAT GRID POINT `t` WRITES BACK is block `t` of the pair's term of the three input arrays as the region finds them. -/
theorem flushed_eq (c : Dev nD) (t : Fin cfg0.N) :
    (dats m 0 c).flushed 3 t
      = ((cfg0.win 3).blk t).view.read (Elt Ideal) (termArray (V m c main_v20) (V m c main_v21) (V m c main_v22)) := by
  show (cfg0.win 3).cut (grid0.coords t) ((dats m 0 c).after 3 t) = _
  rw [after0_3]
  unfold out0_3
  rw [View.canon_unit_zero zero_offsets]
  simp only [View.ld_unit_zero (S := S4096x128) zero_offsets]
  rw [payload_eq]
  obtain ⟨e0, e1, e2, e3, e4, e5, e6, e7⟩ := same_block t
  funext j
  show PairTerm.termK (V m c main_v20 (((cfg0.win 0).blk t).view.emb j)) (V m c main_v21 (((cfg0.win 1).blk t).view.emb j))
      (V m c main_v22 (((cfg0.win 2).blk t).view.emb j))
    = PairTerm.termK (V m c main_v20 (((cfg0.win 3).blk t).view.emb j)) (V m c main_v21 (((cfg0.win 3).blk t).view.emb j))
      (V m c main_v22 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 4096 + 1 * (j 0).val = win0_3.index t (0 : Fin 2) * 4096 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 4096 + 1 * (j 0).val = win0_3.index t (0 : Fin 2) * 4096 + 1 * (j 0).val; omega
    | ⟨1, _⟩ => show win0_2.index t (1 : Fin 2) * 128 + 1 * (j 1).val = win0_3.index t (1 : Fin 2) * 128 + 1 * (j 1).val; omega
  rw [h0, h1, h2]

/-- An index of the output array is in point `t`'s block iff each coordinate is in the block's range on its axis. -/
theorem mem_block (t : Fin cfg0.N) (i : S131072x128.Idx) :
    i ∈ ((cfg0.win 3).blk t).view.set
      ↔ ∀ a : Fin 2, win0_3.index t a * S4096x128.size a ≤ (i a).val ∧ (i a).val < win0_3.index t a * S4096x128.size a + S4096x128.size a := by
  show i ∈ ((View.whole main_v23).slice (win0_3.rect t)).set ↔ _
  rw [View.set_slice_whole, Rect.mem_set_unit]
  exact Iff.rfl

/-- The blocks tile the array: row `i₀` is in the block of the point on block row `i₀ / 4096`. -/
theorem covered (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ := block_of_row ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- THE OUTPUT ARRAY after the run: the pair's term of the three input arrays, index by index. -/
theorem output_array (c : Dev nD) :
    (dats m 0 c).arrAt 3 cfg0.N = termArray (V m c main_v20) (V m c main_v21) (V m c main_v22) :=
  (dats m 0 c).arrAt_eq_of_cover 3 _ (fun t _ => flushed_eq m c t) covered

end Cert.KernelIdeal.PairArray

end
-- ==== Proof.HostSide.lean ====
/-
  The host operations around the kernel's region, read back.

  BEFORE the region the program cuts the pair list into its two index rows, wraps a negative index by the table's
  length 245760, looks both rows up in the charge table, flattens the [16777216, 1] distances, and lays the three
  [16777216] arrays out as [131072, 128] — the arrays the region's three input windows stand on. It also compares the
  two index rows (the "keep each pair once" mask).
  AFTER the region it flattens the region's [131072, 128] output, zeroes the masked-out pairs, adds each pair's term into
  the energy of the pair's system (an accumulating scatter into 4096 zeros), adds the given energies and scales by the
  Coulomb constant.
-/
import proofs.«106208_j58128087384372_2_alg».proof.Proof.KernelArray
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

/-- Row `k` (0 or 1) of the [2, 16777216] pair list, as a flat array of index words. -/
def rowI (x1 : IVec S2x16777216 32) : IVec S16777216 32 :=
  shapeCast S16777216 (extractStridedSlice S1x16777216 ![0, 0] x1 slices_S2x16777216_S1x16777216_0_0) shapeCasts_S1x16777216_S16777216
def rowJ (x1 : IVec S2x16777216 32) : IVec S16777216 32 :=
  shapeCast S16777216 (extractStridedSlice S1x16777216 ![1, 0] x1 slices_S2x16777216_S1x16777216_1_0) shapeCasts_S1x16777216_S16777216

/-- A row of index words with the negative ones moved up by the table's length, as a column of start indices. -/
def wrapped (r : IVec S16777216 32) : IVec S16777216x1 32 :=
  broadcastInDim S16777216x1 ![0] bcast_S16777216_S16777216x1_0
    (select (cmpi .slt r (broadcastInDim S16777216 ![] bcast_S_S16777216 (constantI S_ 32 0#32)))
      (addi r (broadcastInDim S16777216 ![] bcast_S_S16777216 (constantI S_ 32 245760#32))) r)

/-- The charges of a row's atoms: the table looked up at the row's wrapped indices. -/
def charges (x0 : FVec Ideal S245760 .f32) (r : IVec S16777216 32) : FVec Ideal S16777216 .f32 :=
  Host.gather gather_S245760_S16777216x1_S16777216_n_0_n_n_0_1_1 x0 (wrapped r)

/-- The distances, flat. -/
def distances (x2 : FVec Ideal S16777216x1 .f32) : FVec Ideal S16777216 .f32 :=
  shapeCast S16777216 x2 shapeCasts_S16777216x1_S16777216

/-- The mask that keeps a pair once: first index below the second, signed. -/
def keepOnce (x1 : IVec S2x16777216 32) : IVec S16777216 1 := cmpi .slt (rowI x1) (rowJ x1)

/-- A flat array of 16777216 laid out as [131072, 128]. -/
def tiled {α : Type} (v : S16777216.Idx → α) : S131072x128.Idx → α := shapeCast S131072x128 v shapeCasts_S16777216_S131072x128

/-- The lines after the region, as ONE function of the pair list, the system indices, the given energies and the flat
    array of pair terms: mask, accumulate per system, add, scale. -/
def energies (x1 : IVec S2x16777216 32) (x3 : IVec S16777216 32) (x4 : FVec Ideal S4096 .f32) (terms : FVec Ideal S16777216 .f32) :
    FVec Ideal S4096 .f32 :=
  mulf (addf x4 (Host.scatterAdd scatter_S4096_S16777216x1_S16777216_n_0_0_1
      (broadcastInDim S4096 ![] bcast_S_S4096 (constant (F := Ideal) S_ .f32 0x00000000#32))
      (broadcastInDim S16777216x1 ![0] bcast_S16777216_S16777216x1_0 x3)
      (select (keepOnce x1) terms (broadcastInDim S16777216 ![] bcast_S_S16777216 (id (constant (F := Ideal) S_ .f32 0x00000000#32))))))
    (broadcastInDim S4096 ![] bcast_S_S4096 (constant (F := Ideal) S_ .f32 0x430AF5C3#32))

variable (m : (ℓ : Loc nD τ sig) → Buf (Elt Ideal) ℓ) (ρ : Dev nD → PrngReg)

/-- The first window's array as the region finds it: the first row's charges, tiled. -/
theorem V_chargesI (c : Dev nD) :
    (V m c main_v20 : S131072x128.Idx → EReal)
      = tiled (charges (m ((c : Thread nD τ).loc main_arg0)) (rowI (m ((c : Thread nD τ).loc main_arg1)))) := by
  show StableHlo.after hostOps0 (fun b => m (c, b)) (Proc.devRef .tc main_v20) = _
  after_results_simp
  rfl

/-- The second window's: the second row's charges, tiled. -/
theorem V_chargesJ (c : Dev nD) :
    (V m c main_v21 : S131072x128.Idx → EReal)
      = tiled (charges (m ((c : Thread nD τ).loc main_arg0)) (rowJ (m ((c : Thread nD τ).loc main_arg1)))) := by
  show StableHlo.after hostOps0 (fun b => m (c, b)) (Proc.devRef .tc main_v21) = _
  after_results_simp
  rfl

/-- The third window's: the distances, tiled. -/
theorem V_distances (c : Dev nD) :
    (V m c main_v22 : S131072x128.Idx → EReal) = tiled (distances (m ((c : Thread nD τ).loc main_arg2))) := by
  show StableHlo.after hostOps0 (fun b => m (c, b)) (Proc.devRef .tc main_v22) = _
  after_results_simp
  rfl

/-- The mask buffer as the region finds (and leaves) it. -/
theorem V_keepOnce (c : Dev nD) :
    (V m c main_v4 : S16777216.Idx → BitVec 1) = keepOnce (m ((c : Thread nD τ).loc main_arg1)) := by
  show StableHlo.after hostOps0 (fun b => m (c, b)) (Proc.devRef .tc main_v4) = _
  after_results_simp
  rfl

end Cert.KernelIdeal.HostSide

end
-- ==== Proof.KernelRun.lean ====
/-
  The kernel program's run, read: its result buffer ends at the energies computed from the flat array of pair terms in
  the first arrangement (PairTerm.lean), each term taken of the two looked-up charges and the distance of its pair.

  The region's output array is the pair's term of the three tiled input arrays, index by index (KernelArray.lean); the
  lines after the region flatten it and feed it to the masked accumulation (HostSide.lean). Laying a flat array out as
  [131072, 128] and flattening it again is the identity, and the pair's term is taken index by index, so the flattened
  output is the term of the three FLAT arrays.
-/
import proofs.«106208_j58128087384372_2_alg».proof.Proof.HostSide

set_option maxRecDepth 16384

noncomputable section

namespace Cert.KernelIdeal.Energy

open Idealize.ShloMosaic Idealize.ShloMosaic.TcCoe Idealize.SL.Sem Idealize.ShloMosaic.StableHlo
open Cert.KernelIdeal Cert.KernelIdeal.Gen Cert.KernelIdeal.PairArray Cert.KernelIdeal.HostSide

/-- A [131072, 128] array flattened. -/
def flat {α : Type} (v : S131072x128.Idx → α) : S16777216.Idx → α := shapeCast S16777216 v shapeCasts_S131072x128_S16777216

/-- Tiling then flattening is the identity. -/
theorem flat_tiled {α : Type} (v : S16777216.Idx → α) : flat (tiled v) = v :=
  shapeCast_shapeCast v shapeCasts_S16777216_S131072x128 shapeCasts_S131072x128_S16777216

/-- The flat array of pair terms: pair `p`'s term of its two atoms' charges and its distance. -/
def pairTerms (x0 : FVec Ideal S245760 .f32) (x1 : IVec S2x16777216 32) (x2 : FVec Ideal S16777216x1 .f32) :
    FVec Ideal S16777216 .f32 :=
  fun p => PairTerm.termK (charges x0 (rowI x1) p) (charges x0 (rowJ x1) p) (distances x2 p)

/-- The flattened output of the region is that array: the term is taken index by index, and each tiled input read
    at the tiled position of `p` is the flat input at `p`. -/
theorem flat_termArray (a0 a1 a2 : S16777216.Idx → EReal) :
    flat (termArray (tiled a0) (tiled a1) (tiled a2)) = fun p => PairTerm.termK (a0 p) (a1 p) (a2 p) := by
  funext p
  show PairTerm.termK (flat (tiled a0) p) (flat (tiled a1) p) (flat (tiled a2) p) = _
  rw [flat_tiled, flat_tiled, flat_tiled]

variable (m : (ℓ : Loc nD τ sig) → Buf (Elt Ideal) ℓ) (ρ : Dev nD → PrngReg)

/-- THE RESULT BUFFER after the lines that follow the region. -/
theorem result_eq (c : Dev nD) :
    Pipeline.afterTail₀ cfgs (dats m) 0 (V0 m) [hostOps1, hostOps1_1, hostOps1_2] c main_v31
      = energies (m ((c : Thread nD τ).loc main_arg1)) (m ((c : Thread nD τ).loc main_arg3)) (m ((c : Thread nD τ).loc main_arg4))
          (pairTerms (m ((c : Thread nD τ).loc main_arg0)) (m ((c : Thread nD τ).loc main_arg1)) (m ((c : Thread nD τ).loc main_arg2))) := by
  unfold Pipeline.afterTail₀
  simp only [hostOps1, hostOps1_1, hostOps1_2, List.flatten_cons, List.flatten_nil, List.append_nil, List.cons_append, List.nil_append]
  after_results_simp
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have ek : Pipeline.withArrays (cfgs 0).spec c (V0 m c) (fun w => (dats m 0 c).arrAt w (cfgs 0).N) (Proc.devRef .tc main_v4)
      = keepOnce (m ((c : Thread nD τ).loc main_arg1)) :=
    (Pipeline.withArrays_of_ne _ c (V0 m c) _ main_v4 (by exact (by decide : ∀ w, Pipeline.arrRef spec0 w ≠ main_v4))).trans
      (V_keepOnce m c)
  have eo : Pipeline.withArrays (cfgs 0).spec c (V0 m c) (fun w => (dats m 0 c).arrAt w (cfgs 0).N) (Proc.devRef .tc main_v23)
      = termArray (tiled (charges (m ((c : Thread nD τ).loc main_arg0)) (rowI (m ((c : Thread nD τ).loc main_arg1)))))
          (tiled (charges (m ((c : Thread nD τ).loc main_arg0)) (rowJ (m ((c : Thread nD τ).loc main_arg1)))))
          (tiled (distances (m ((c : Thread nD τ).loc main_arg2)))) :=
    (Pipeline.withArrays_arr spec0 launch0.win.arr_inj c (V0 m c) (fun w => (dats m 0 c).arrAt w cfg0.N) 3).trans
      ((output_array m c).trans (by rw [V_chargesI, V_chargesJ, V_distances]))
  rw [e4, e3, ek, eo]
  show energies (m ((c : Thread nD τ).loc main_arg1)) (m ((c : Thread nD τ).loc main_arg3)) (m ((c : Thread nD τ).loc main_arg4))
      (flat (termArray (tiled (charges (m ((c : Thread nD τ).loc main_arg0)) (rowI (m ((c : Thread nD τ).loc main_arg1)))))
          (tiled (charges (m ((c : Thread nD τ).loc main_arg0)) (rowJ (m ((c : Thread nD τ).loc main_arg1)))))
          (tiled (distances (m ((c : Thread nD τ).loc main_arg2)))))) = _
  rw [flat_termArray]
  rfl

/-- THE RUN, READ: every weakly fair execution of the program terminates with the result buffer at those energies and
    the five argument arrays unchanged. -/
theorem run : θ_run defs (onTc (τ := τ) (main (F := Ideal))) ⟨m, fun _ => 0, ρ⟩ (fun r => ∀ c : Dev nD,
      r.2.mem ((c.tc : Thread nD τ).loc main_v31)
        = energies (m ((c : Thread nD τ).loc main_arg1)) (m ((c : Thread nD τ).loc main_arg3)) (m ((c : Thread nD τ).loc main_arg4))
            (pairTerms (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v31 (Pipeline.mem_restRefs_of main_v31 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Energy

end
-- ==== Proof.Bridge.lean ====
/-
  The two programs compute the same energies.

  The reference, read one operation at a time, is the same masked accumulation (mask, accumulate per system, add the
  given energies, scale) of ITS flat array of pair terms; that array is, pair by pair, the second arrangement of the
  pair's term (PairTerm.lean) of the same two looked-up charges and the same distance. Under the precondition every
  distance is a nonzero real (DistanceDomain.lean), where the two arrangements are one extended real: the two flat
  arrays are equal, and so are the energies.
-/
import proofs.«106208_j58128087384372_2_alg».proof.Proof.Gen.ReferenceIdeal.Read
import proofs.«106208_j58128087384372_2_alg».proof.Proof.KernelRun

set_option maxRecDepth 16384

noncomputable section

namespace Cert.Bridge

open Idealize.ShloMosaic
open Cert.KernelIdeal.HostSide Cert.KernelIdeal.Energy

/-- The reference's flat array of pair terms, at pair `p`: the second arrangement of the term of the pair's two charges
    and its distance (every operation of the reference between the inputs and that array is pointwise or a look-up). -/
theorem ref_term (x0 : FVec Ideal Cert.ReferenceIdeal.S245760 .f32) (x1 : IVec Cert.ReferenceIdeal.S2x16777216 32)
    (x2 : FVec Ideal Cert.ReferenceIdeal.S16777216x1 .f32) (p : Cert.ReferenceIdeal.S16777216.Idx) :
    Cert.ReferenceIdeal.Read.val_main_v54 (F := Ideal) x0 x1 x2 p
      = PairTerm.termR (charges x0 (rowI x1) p) (charges x0 (rowJ x1) p) (distances x2 p) := rfl

/-- The reference's result is the same function of the pair list, the system indices, the given energies and its own
    flat array of pair terms as the kernel program's is of its own. -/
theorem ref_result (x0 : FVec Ideal Cert.ReferenceIdeal.S245760 .f32) (x1 : IVec Cert.ReferenceIdeal.S2x16777216 32)
    (x2 : FVec Ideal Cert.ReferenceIdeal.S16777216x1 .f32) (x3 : IVec Cert.ReferenceIdeal.S16777216 32)
    (x4 : FVec Ideal Cert.ReferenceIdeal.S4096 .f32) :
    Cert.ReferenceIdeal.Read.val_main_v61 (F := Ideal) x0 x1 x2 x3 x4
      = energies x1 x3 x4 (Cert.ReferenceIdeal.Read.val_main_v54 (F := Ideal) x0 x1 x2) := rfl

/-- Where every distance is a nonzero real the two flat arrays of pair terms are equal. -/
theorem pairTerms_eq (x0 : FVec Ideal Cert.ReferenceIdeal.S245760 .f32) (x1 : IVec Cert.ReferenceIdeal.S2x16777216 32)
    (x2 : FVec Ideal Cert.ReferenceIdeal.S16777216x1 .f32)
    (hd : ∀ j, ∃ r : ℝ, r ≠ 0 ∧ x2 j = (r : EReal)) :
    pairTerms x0 x1 x2 = Cert.ReferenceIdeal.Read.val_main_v54 (F := Ideal) x0 x1 x2 := by
  funext p
  rw [ref_term]
  obtain ⟨r, hr, e⟩ := hd (Cert.ReferenceIdeal.Read.idx_main_v5 p)
  have hp : distances x2 p = (r : EReal) := (Cert.ReferenceIdeal.Read.val_main_v5_apply (F := Ideal) x2 p).trans e
  show PairTerm.termK _ _ (distances x2 p) = PairTerm.termR _ _ (distances x2 p)
  rw [hp]
  exact PairTerm.termK_eq_termR _ _ r hr

/-- THE BRIDGE: under the precondition's reading of the distances, the kernel program's energies are the reference's. -/
theorem energies_eq (x0 : FVec Ideal Cert.ReferenceIdeal.S245760 .f32) (x1 : IVec Cert.ReferenceIdeal.S2x16777216 32)
    (x2 : FVec Ideal Cert.ReferenceIdeal.S16777216x1 .f32) (x3 : IVec Cert.ReferenceIdeal.S16777216 32)
    (x4 : FVec Ideal Cert.ReferenceIdeal.S4096 .f32)
    (hd : ∀ j, ∃ r : ℝ, r ≠ 0 ∧ x2 j = (r : EReal)) :
    Cert.ReferenceIdeal.Read.val_main_v61 (F := Ideal) x0 x1 x2 x3 x4 = energies x1 x3 x4 (pairTerms x0 x1 x2) := by
  rw [ref_result, pairTerms_eq x0 x1 x2 hd]

end Cert.Bridge

end
-- ==== Proof.lean ====
/-
  The cutoff-blended Coulomb energy: a kernel program against its reference, equal over the extended reals.

  Both programs take a table of atomic charges, a list of 16777216 atom pairs, the pairs' distances, each pair's system
  index and 4096 given energies, and return, per system, the given energy plus the sum over the system's pairs (each
  kept once: first index below the second) of `qᵢ qⱼ (φ(2d) / √(d² + 1) + (1 - φ(2d)) / d)`, scaled by the Coulomb
  constant; `φ` is the quintic switching function, cut to zero from `u = 1` on.

  The kernel program looks the charges up on the host, computes the pair terms in a pipelined region over 32 blocks of
  [4096, 128] — with products by reciprocals (`· 1`, `· rsqrt`, `· (1/d)`) —, and masks and accumulates on the host. The
  reference does everything on the host, with quotients. The two flat arrays of pair terms agree wherever the distance
  is a nonzero real (Proof/PairTerm.lean: at `d = 0` one side is `0 · (1/0) = 0` and the other `0/0`), which the
  precondition states: every float input finite and every distance different from zero. Everything after the pair terms
  is one function on both sides (Proof/HostSide.lean `energies`), so equal arrays give equal energies.

  Proof/KernelArray.lean — the region's output array, index by index; Proof/HostSide.lean — the host lines around the
  region; Proof/KernelRun.lean — the kernel program's run with its result named; Proof/DistanceDomain.lean — the
  precondition read at a distance; Proof/Bridge.lean — the reference's result as the same function, and the equality.
  The three frames are the generated ones (the reference's its generated run with the result dropped); the
  idealization rewrote nothing, so `preserves` is trivial.
-/
import proofs.«106208_j58128087384372_2_alg».proof.Defs
import proofs.«106208_j58128087384372_2_alg».proof.Proof.Gen.Kernel
import proofs.«106208_j58128087384372_2_alg».proof.Proof.Gen.Kernel.Skeleton
import proofs.«106208_j58128087384372_2_alg».proof.Proof.Gen.Kernel.Launch
import proofs.«106208_j58128087384372_2_alg».proof.Proof.Gen.Kernel.Points
import proofs.«106208_j58128087384372_2_alg».proof.Proof.Gen.Kernel.Frame
import proofs.«106208_j58128087384372_2_alg».proof.Proof.Gen.KernelIdeal
import proofs.«106208_j58128087384372_2_alg».proof.Proof.Gen.KernelIdeal.Skeleton
import proofs.«106208_j58128087384372_2_alg».proof.Proof.Gen.KernelIdeal.Launch
import proofs.«106208_j58128087384372_2_alg».proof.Proof.Gen.KernelIdeal.Points
import proofs.«106208_j58128087384372_2_alg».proof.Proof.Gen.KernelIdeal.Frame
import proofs.«106208_j58128087384372_2_alg».proof.Proof.Gen.ReferenceIdeal
import proofs.«106208_j58128087384372_2_alg».proof.Proof.Gen.ReferenceIdeal.Run
import proofs.«106208_j58128087384372_2_alg».proof.Proof.Gen.ReferenceIdeal.Read
import proofs.«106208_j58128087384372_2_alg».proof.Proof.Gen.Pre_finite_inputs
import proofs.«106208_j58128087384372_2_alg».proof.Proof.DistanceDomain
import proofs.«106208_j58128087384372_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the energies of the kernel program's flat array of pair terms: the kernel program's by its run
    read (Proof/KernelRun.lean), the reference's because, its arguments being the kernel program's and every distance a
    nonzero real, its own composed term is those energies (Proof/Bridge.lean). -/
theorem algebraic : Cert.algebraic_KernelIdeal_ReferenceIdeal := by
  intro m ρ m' ρ' hpre hagree
  refine ⟨_, Cert.KernelIdeal.Energy.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2.1, (hagree c).2.2.2.1,
    (hagree c).2.2.2.2]
  exact Cert.Bridge.energies_eq _ _ _ _ _ (Cert.DistanceDomain.distance_real_ne_zero _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
